-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel

variable [Facts]

def fn {F : FTy → Type} [FloatOps F] (main_arg0 : FVec F S1024x256 .f32) (main_arg1 : FVec F S1024x256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S1024x256 : Shape := ⟨2, ![1024, 256]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S256x256 : Shape := ⟨2, ![256, 256]⟩
abbrev S256x1 : Shape := ⟨2, ![256, 1]⟩
abbrev S1x256 : Shape := ⟨2, ![1, 256]⟩
abbrev S16x256 : Shape := ⟨2, ![16, 256]⟩
abbrev S16x1x256 : Shape := ⟨3, ![16, 1, 256]⟩
abbrev S1x256x256 : Shape := ⟨3, ![1, 256, 256]⟩
abbrev S16x256x256 : Shape := ⟨3, ![16, 256, 256]⟩

abbrev nBuf : Space → Nat
  | .hbm => 9
  | .vmem => 11
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S_, .f32⟩
  | .hbm, ⟨3, _⟩ => ⟨S1024, .f32⟩
  | .hbm, ⟨4, _⟩ => ⟨S1024x1, .f32⟩
  | .hbm, ⟨5, _⟩ => ⟨S_, .f32⟩
  | .hbm, ⟨6, _⟩ => ⟨S1024, .f32⟩
  | .hbm, ⟨7, _⟩ => ⟨S1x1024, .f32⟩
  | .hbm, ⟨8, _⟩ => ⟨S1024x1024, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x1, .f32⟩
  | .local _ .vmem, ⟨5, _⟩ => ⟨S256x1, .f32⟩
  | .local _ .vmem, ⟨6, _⟩ => ⟨S1x256, .f32⟩
  | .local _ .vmem, ⟨7, _⟩ => ⟨S1x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_mult1 : BitVec 32 :=
  let c0_i32 : BitVec 32 := 0#32
  let c16_i32 : BitVec 32 := 16#32
  let v5 : BitVec 32 := Scalar.muli c0_i32 c16_i32
  v5
def k0_off1 (c0_i32 : BitVec 32) : Fin 2 → Nat :=
  let c16_i32 : BitVec 32 := 16#32
  let v5 : BitVec 32 := Scalar.muli c0_i32 c16_i32
  let v6 : BitVec 32 := v5
  let v7 : Index := Scalar.indexCast v6
  let c0_5 : Index := 0#32
  ![v7.toNat, 0]
def k0_mult2 : BitVec 32 :=
  let c1_i32 : BitVec 32 := 1#32
  let c16_i32_7 : BitVec 32 := 16#32
  let v20 : BitVec 32 := Scalar.muli c1_i32 c16_i32_7
  v20
def k0_mult3 : BitVec 32 :=
  let c2_i32 : BitVec 32 := 2#32
  let c16_i32_11 : BitVec 32 := 16#32
  let v35 : BitVec 32 := Scalar.muli c2_i32 c16_i32_11
  v35
def k0_mult4 : BitVec 32 :=
  let c3_i32 : BitVec 32 := 3#32
  let c16_i32_15 : BitVec 32 := 16#32
  let v50 : BitVec 32 := Scalar.muli c3_i32 c16_i32_15
  v50
def k0_mult5 : BitVec 32 :=
  let c4_i32 : BitVec 32 := 4#32
  let c16_i32_19 : BitVec 32 := 16#32
  let v65 : BitVec 32 := Scalar.muli c4_i32 c16_i32_19
  v65
def k0_mult6 : BitVec 32 :=
  let c5_i32 : BitVec 32 := 5#32
  let c16_i32_23 : BitVec 32 := 16#32
  let v80 : BitVec 32 := Scalar.muli c5_i32 c16_i32_23
  v80
def k0_mult7 : BitVec 32 :=
  let c6_i32 : BitVec 32 := 6#32
  let c16_i32_27 : BitVec 32 := 16#32
  let v95 : BitVec 32 := Scalar.muli c6_i32 c16_i32_27
  v95
def k0_mult8 : BitVec 32 :=
  let c7_i32 : BitVec 32 := 7#32
  let c16_i32_31 : BitVec 32 := 16#32
  let v110 : BitVec 32 := Scalar.muli c7_i32 c16_i32_31
  v110
def k0_mult9 : BitVec 32 :=
  let c8_i32 : BitVec 32 := 8#32
  let c16_i32_35 : BitVec 32 := 16#32
  let v125 : BitVec 32 := Scalar.muli c8_i32 c16_i32_35
  v125
def k0_mult10 : BitVec 32 :=
  let c9_i32 : BitVec 32 := 9#32
  let c16_i32_39 : BitVec 32 := 16#32
  let v140 : BitVec 32 := Scalar.muli c9_i32 c16_i32_39
  v140
def k0_mult11 : BitVec 32 :=
  let c10_i32 : BitVec 32 := 10#32
  let c16_i32_43 : BitVec 32 := 16#32
  let v155 : BitVec 32 := Scalar.muli c10_i32 c16_i32_43
  v155
def k0_mult12 : BitVec 32 :=
  let c11_i32 : BitVec 32 := 11#32
  let c16_i32_47 : BitVec 32 := 16#32
  let v170 : BitVec 32 := Scalar.muli c11_i32 c16_i32_47
  v170
def k0_mult13 : BitVec 32 :=
  let c12_i32 : BitVec 32 := 12#32
  let c16_i32_51 : BitVec 32 := 16#32
  let v185 : BitVec 32 := Scalar.muli c12_i32 c16_i32_51
  v185
def k0_mult14 : BitVec 32 :=
  let c13_i32 : BitVec 32 := 13#32
  let c16_i32_55 : BitVec 32 := 16#32
  let v200 : BitVec 32 := Scalar.muli c13_i32 c16_i32_55
  v200
def k0_mult15 : BitVec 32 :=
  let c14_i32 : BitVec 32 := 14#32
  let c16_i32_59 : BitVec 32 := 16#32
  let v215 : BitVec 32 := Scalar.muli c14_i32 c16_i32_59
  v215
def k0_mult16 : BitVec 32 :=
  let c15_i32 : BitVec 32 := 15#32
  let c16_i32_63 : BitVec 32 := 16#32
  let v230 : BitVec 32 := Scalar.muli c15_i32 c16_i32_63
  v230
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S1024x256_S1024_d1 : S1024x256.ReducesTo [1] S1024
  h_S_ : 0 < S_.numel
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  h_S16x256 : 0 < S16x256.numel
  shapeCasts_S16x256_S16x1x256 : S16x256.ShapeCasts S16x1x256
  shapeCasts_S256x256_S1x256x256 : S256x256.ShapeCasts S1x256x256
  broadcasts_S16x1x256_S16x256x256 : S16x1x256.Broadcasts S16x256x256
  broadcasts_S1x256x256_S16x256x256 : S1x256x256.Broadcasts S16x256x256
  reduces_S16x256x256_S16x256 : S16x256x256.Reduces [2] S16x256
  shapeCasts_S16x256_S16x256 : S16x256.ShapeCasts S16x256
  broadcasts_S256x1_S256x256 : S256x1.Broadcasts S256x256
  broadcasts_S1x256_S256x256 : S1x256.Broadcasts S256x256
  hrank0 : 0 < grid0.rank
  k0_mult1_dvd : 16 ∣ k0_mult1.toNat
  k0_off1_inb : ∀ (r : Fin 16), ∀ a, (k0_off1 (BitVec.ofNat 32 r.val)) a + S16x256.size a ≤ S256x256.size a
  k0_mult2_dvd : 16 ∣ k0_mult2.toNat
  k0_mult3_dvd : 16 ∣ k0_mult3.toNat
  k0_mult4_dvd : 16 ∣ k0_mult4.toNat
  k0_mult5_dvd : 16 ∣ k0_mult5.toNat
  k0_mult6_dvd : 16 ∣ k0_mult6.toNat
  k0_mult7_dvd : 16 ∣ k0_mult7.toNat
  k0_mult8_dvd : 16 ∣ k0_mult8.toNat
  k0_mult9_dvd : 16 ∣ k0_mult9.toNat
  k0_mult10_dvd : 16 ∣ k0_mult10.toNat
  k0_mult11_dvd : 16 ∣ k0_mult11.toNat
  k0_mult12_dvd : 16 ∣ k0_mult12.toNat
  k0_mult13_dvd : 16 ∣ k0_mult13.toNat
  k0_mult14_dvd : 16 ∣ k0_mult14.toNat
  k0_mult15_dvd : 16 ∣ k0_mult15.toNat
  k0_mult16_dvd : 16 ∣ k0_mult16.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S1024x256.size a
  hwx0_0 : ∀ i : grid0.Coords, EltTy.bits .f32 = 32 ∨ (Rect.block (s := S1024x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S1024x256.size a
  hwx0_1 : ∀ i : grid0.Coords, EltTy.bits .f32 = 32 ∨ (Rect.block (s := S1024x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S1024x1.size a
  hwx0_2 : ∀ i : grid0.Coords, EltTy.bits .f32 = 32 ∨ (Rect.block (s := S1024x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x1024.size a
  hwx0_3 : ∀ i : grid0.Coords, EltTy.bits .f32 = 32 ∨ (Rect.block (s := S1x1024) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S1024x1024.size a
  hwx0_4 : ∀ i : grid0.Coords, EltTy.bits .f32 = 32 ∨ (Rect.block (s := S1024x1024) S256x256.size (cc0_transform_4 i) (hinb0_4 i)).WholeWords (EltTy.packing .f32)

variable [Facts₀]

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x256 : Shape := ⟨2, ![1024, 256]⟩
abbrev S1024x1x256 : Shape := ⟨3, ![1024, 1, 256]⟩
abbrev S1x1024x256 : Shape := ⟨3, ![1, 1024, 256]⟩
abbrev S1024x1024x256 : Shape := ⟨3, ![1024, 1024, 256]⟩
abbrev S_ : Shape := ⟨0, ![]⟩
abbrev S1024x1024 : Shape := ⟨2, ![1024, 1024]⟩

abbrev nBuf : Space → Nat
  | .hbm => 18
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x1x256, .f32⟩
  | .hbm, ⟨3, _⟩ => ⟨S1x1024x256, .f32⟩
  | .hbm, ⟨4, _⟩ => ⟨S1024x1024x256, .f32⟩
  | .hbm, ⟨5, _⟩ => ⟨S1024x1024x256, .f32⟩
  | .hbm, ⟨6, _⟩ => ⟨S1024x1024x256, .f32⟩
  | .hbm, ⟨7, _⟩ => ⟨S_, .f32⟩
  | .hbm, ⟨8, _⟩ => ⟨S1024x1024, .f32⟩
  | .hbm, ⟨9, _⟩ => ⟨S1024x1024x256, .f32⟩
  | .hbm, ⟨10, _⟩ => ⟨S1024x1024x256, .f32⟩
  | .hbm, ⟨11, _⟩ => ⟨S1024x1024x256, .f32⟩
  | .hbm, ⟨12, _⟩ => ⟨S_, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  bcast_S1024x256_S1024x1x256_0_2 : S1024x256.BroadcastsInDim S1024x1x256 (![0, 2] : Fin 2 → Fin S1024x1x256.rank)
  bcast_S1024x256_S1x1024x256_1_2 : S1024x256.BroadcastsInDim S1x1024x256 (![1, 2] : Fin 2 → Fin S1x1024x256.rank)
  bcast_S1024x1x256_S1024x1024x256_0_1_2 : S1024x1x256.BroadcastsInDim S1024x1024x256 (![0, 1, 2] : Fin 3 → Fin S1024x1024x256.rank)
  bcast_S1x1024x256_S1024x1024x256_0_1_2 : S1x1024x256.BroadcastsInDim S1024x1024x256 (![0, 1, 2] : Fin 3 → Fin S1024x1024x256.rank)
  reducesTo_S1024x1024x256_S1024x1024_d2 : S1024x1024x256.ReducesTo [2] S1024x1024
  h_S_ : 0 < S_.numel
  bcast_S_S1024x1024 : S_.BroadcastsInDim S1024x1024 (![] : Fin 0 → Fin S1024x1024.rank)

variable [Facts₀]

class Facts : Prop extends Facts₀ where

variable [Facts]
-- ==== Proof.Spec.lean ====
/-
  The weighted Jaccard (Ruzicka) similarity of the rows of two matrices, over the extended reals, in the two
  arrangements the two programs compute it in.

  For rows `a = x[i, :]` and `b = y[j, :]` (256 entries each) the similarity is

      sim(i, j) = (∑_d min(a_d, b_d)) / (∑_d max(a_d, b_d) + ε).

  The second arrangement never takes a minimum or a maximum: from the row sums `A = ∑ a_d`, `B = ∑ b_d` and the
  L1 distance `S = ∑ |a_d - b_d|` it forms

      simK(i, j) = ((A + B) - S) / (((A + B) + S) + ε₂),        ε₂ = 2 ε.

  On real entries `a_d + b_d - |a_d - b_d| = 2 min(a_d, b_d)` and `a_d + b_d + |a_d - b_d| = 2 max(a_d, b_d)`, so the
  numerator and the denominator of `simK` are twice those of `sim`, and the quotient is the same (also by zero:
  the quotient by zero only looks at the numerator's sign, which doubling keeps).
  The sums here carry the initial value `z` (the word of +0.0) in front, as the programs' sums do.
-/
import Idealize.ShloMosaic.PureOps.Ideal
import Idealize.ShloMosaic.PureOps.Ideal.Laws
import Idealize.ShloMosaic.Lib.ValueIdx

noncomputable section

open scoped BigOperators

namespace Cert.Ruzicka

open Idealize.ShloMosaic Idealize.ShloMosaic.ValueIdx

/-- The two argument matrices' shape, [1024, 256], and the result's, [1024, 1024]. -/
abbrev SX : Shape := ⟨2, ![1024, 256]⟩
abbrev SO : Shape := ⟨2, ![1024, 1024]⟩

/-- The sums' initial value: what the word of +0.0 denotes. -/
def z : EReal := Ideal.ofBits .f32 0x00000000#32
/-- ε as the first arrangement spells it, and the second arrangement's ε₂ (the same significand, the exponent one higher). -/
def eps : EReal := Ideal.ofBits .f32 0x322BCC77#32
def eps2 : EReal := Ideal.ofBits .f32 0x32ABCC77#32

/-- `∑_d min(x[i,d], y[j,d])` and `∑_d max(x[i,d], y[j,d])`, from the initial value. -/
def minSum (x y : SX.Idx → EReal) (i j : Fin 1024) : EReal := z + ∑ d : Fin 256, min (x (ix2 i d)) (y (ix2 j d))
def maxSum (x y : SX.Idx → EReal) (i j : Fin 1024) : EReal := z + ∑ d : Fin 256, max (x (ix2 i d)) (y (ix2 j d))

/-- The similarity, entry by entry: the first arrangement. -/
def sim (x y : SX.Idx → EReal) : SO.Idx → EReal := fun ij =>
  Ideal.div (minSum x y (ij 0) (ij 1)) (maxSum x y (ij 0) (ij 1) + eps)

/-- A row's sum, from the initial value, and the L1 distance of two rows (`|t|` as `max t (-t)`, no initial value). -/
def rowSum (x : SX.Idx → EReal) (i : Fin 1024) : EReal := z + ∑ d : Fin 256, x (ix2 i d)
def l1 (x y : SX.Idx → EReal) (i j : Fin 1024) : EReal :=
  ∑ d : Fin 256, max (x (ix2 i d) - y (ix2 j d)) (-(x (ix2 i d) - y (ix2 j d)))

/-- The similarity from row sums and the L1 distance: the second arrangement. -/
def simK (x y : SX.Idx → EReal) : SO.Idx → EReal := fun ij =>
  Ideal.div ((rowSum x (ij 0) + rowSum y (ij 1)) - l1 x y (ij 0) (ij 1))
    (((rowSum x (ij 0) + rowSum y (ij 1)) + l1 x y (ij 0) (ij 1)) + eps2)

end Cert.Ruzicka

end
-- ==== Proof.Law.lean ====
/-
  The algebraic law behind the two arrangements of the weighted Jaccard (Ruzicka) similarity, over the extended reals.

  On real entries `p + q - |p - q| = 2 min p q` and `p + q + |p - q| = 2 max p q` (with `|t| = max t (-t)`). Summed over a
  row, the second arrangement's numerator `(A + B) - S` is twice `∑ min`, and its denominator `((A + B) + S) + ε₂` is
  twice `∑ max + ε` because `ε₂ = 2 ε`. A quotient does not change when numerator and denominator are both doubled:
  off zero because `(2n)(2d)⁻¹ = n d⁻¹`, and by zero because the quotient then only looks at the sign of the numerator,
  which doubling keeps. All of it is done in ℝ and carried to the extended reals by the coercion, which commutes with
  finite sums, differences, negation, `min` and `max`.

  This module is the one place where the three float constants are read as extended reals.
-/
import proofs.«102354_j78718160601148_2_alg».proof.Proof.Spec

noncomputable section

open scoped BigOperators

namespace Cert.Ruzicka

open Idealize.ShloMosaic Idealize.ShloMosaic.ValueIdx

namespace Law

/-- The word of `+0.0` denotes `0`. -/
theorem z_eq : z = 0 := by
  simp [z, Ideal.ofBits, Ideal.ieee]

/-- The real number ε. -/
def epsR : ℝ := 11258999 * (2:ℝ)^(-50:ℤ)

/-- The first arrangement's ε: sign 0, exponent field 100, fraction 2870391, so `(2^23 + 2870391) · 2^(100 - 127 - 23)`. -/
theorem eps_eq : eps = ((epsR : ℝ) : EReal) := by
  simp [eps, epsR, Ideal.ofBits, Ideal.ieee, -EReal.coe_mul]

/-- The second arrangement's ε₂: the same significand, exponent field 101, so twice ε. -/
theorem eps2_eq : eps2 = ((2 * epsR : ℝ) : EReal) := by
  simp [eps2, epsR, Ideal.ofBits, Ideal.ieee, -EReal.coe_mul]; norm_num

/-- The coercion of a finite sum of reals is the sum of the coercions. -/
theorem coe_sum {ι : Type*} (s : Finset ι) (f : ι → ℝ) :
    ((∑ d ∈ s, f d : ℝ) : EReal) = ∑ d ∈ s, (f d : EReal) := by
  classical
  induction s using Finset.induction_on with
  | empty => simp
  | insert a s ha ih => rw [Finset.sum_insert ha, Finset.sum_insert ha, EReal.coe_add, ih]

/-- Doubling numerator and denominator does not change the quotient, the quotient by zero included. -/
theorem div_two_mul (n d : ℝ) :
    Ideal.div ((2 * n : ℝ) : EReal) ((2 * d : ℝ) : EReal) = Ideal.div (n : EReal) (d : EReal) := by
  unfold Ideal.div
  by_cases hd : d = 0
  · subst hd
    have hn : (0 < ((2 * n : ℝ) : EReal)) ↔ (0 < (n : EReal)) := by
      rw [EReal.coe_pos, EReal.coe_pos]; constructor <;> intro h <;> linarith
    simp only [mul_zero, EReal.coe_zero, if_true, hn]
  · have h2 : (2 * d : ℝ) ≠ 0 := by positivity
    have e1 : ((2 * d : ℝ) : EReal) ≠ 0 := by exact_mod_cast h2
    have e2 : ((d : ℝ) : EReal) ≠ 0 := by exact_mod_cast hd
    rw [if_neg e1, if_neg e2, ← EReal.coe_inv, ← EReal.coe_inv, ← EReal.coe_mul, ← EReal.coe_mul]
    congr 1
    field_simp

/-- The coercion of the reals into the extended reals is monotone, so it commutes with `min` and `max`. -/
theorem coe_min' (p q : ℝ) : ((min p q : ℝ) : EReal) = min (p : EReal) (q : EReal) :=
  EReal.coe_strictMono.monotone.map_min
theorem coe_max' (p q : ℝ) : ((max p q : ℝ) : EReal) = max (p : EReal) (q : EReal) :=
  EReal.coe_strictMono.monotone.map_max

/-- The four sums on real entries are the coercions of the real sums. -/
theorem minSum_coe (a b : SX.Idx → ℝ) (i j : Fin 1024) :
    minSum (fun k => (a k : EReal)) (fun k => (b k : EReal)) i j
      = ((∑ d : Fin 256, min (a (ix2 i d)) (b (ix2 j d)) : ℝ) : EReal) := by
  unfold minSum
  rw [z_eq, zero_add, coe_sum]
  exact Finset.sum_congr rfl fun d _ => (coe_min' _ _).symm

theorem maxSum_coe (a b : SX.Idx → ℝ) (i j : Fin 1024) :
    maxSum (fun k => (a k : EReal)) (fun k => (b k : EReal)) i j
      = ((∑ d : Fin 256, max (a (ix2 i d)) (b (ix2 j d)) : ℝ) : EReal) := by
  unfold maxSum
  rw [z_eq, zero_add, coe_sum]
  exact Finset.sum_congr rfl fun d _ => (coe_max' _ _).symm

theorem rowSum_coe (a : SX.Idx → ℝ) (i : Fin 1024) :
    rowSum (fun k => (a k : EReal)) i = ((∑ d : Fin 256, a (ix2 i d) : ℝ) : EReal) := by
  unfold rowSum
  rw [z_eq, zero_add, coe_sum]

theorem l1_coe (a b : SX.Idx → ℝ) (i j : Fin 1024) :
    l1 (fun k => (a k : EReal)) (fun k => (b k : EReal)) i j
      = ((∑ d : Fin 256, max (a (ix2 i d) - b (ix2 j d)) (-(a (ix2 i d) - b (ix2 j d))) : ℝ) : EReal) := by
  unfold l1
  rw [coe_sum]
  refine Finset.sum_congr rfl fun d _ => ?_
  rw [coe_max', EReal.coe_neg, EReal.coe_sub]

/-- Pointwise: `p + q - |p - q| = 2 min p q` and `p + q + |p - q| = 2 max p q`, with `|t| = max t (-t)`. -/
theorem add_sub_absdiff (p q : ℝ) : p + q - max (p - q) (-(p - q)) = 2 * min p q := by
  rcases le_total p q with h | h
  · rw [min_eq_left h, max_eq_right (by linarith)]; ring
  · rw [min_eq_right h, max_eq_left (by linarith)]; ring

theorem add_add_absdiff (p q : ℝ) : p + q + max (p - q) (-(p - q)) = 2 * max p q := by
  rcases le_total p q with h | h
  · rw [max_eq_right h, max_eq_right (by linarith)]; ring
  · rw [max_eq_left h, max_eq_left (by linarith)]; ring

/-- The same two identities summed over a finite index set. -/
theorem sum_num {ι : Type*} (s : Finset ι) (f g : ι → ℝ) :
    (∑ d ∈ s, f d + ∑ d ∈ s, g d) - ∑ d ∈ s, max (f d - g d) (-(f d - g d))
      = 2 * ∑ d ∈ s, min (f d) (g d) := by
  rw [← Finset.sum_add_distrib, ← Finset.sum_sub_distrib, Finset.mul_sum]
  exact Finset.sum_congr rfl fun d _ => add_sub_absdiff _ _

theorem sum_den {ι : Type*} (s : Finset ι) (f g : ι → ℝ) (e : ℝ) :
    ((∑ d ∈ s, f d + ∑ d ∈ s, g d) + ∑ d ∈ s, max (f d - g d) (-(f d - g d))) + 2 * e
      = 2 * (∑ d ∈ s, max (f d) (g d) + e) := by
  rw [← Finset.sum_add_distrib, ← Finset.sum_add_distrib, mul_add, Finset.mul_sum]
  congr 1
  exact Finset.sum_congr rfl fun d _ => add_add_absdiff _ _

/-- One entry of the law, on real matrices: numerator and denominator of the second arrangement are twice the first's. -/
theorem law_entry (a b : SX.Idx → ℝ) (i j : Fin 1024) :
    Ideal.div
        ((rowSum (fun k => (a k : EReal)) i + rowSum (fun k => (b k : EReal)) j)
          - l1 (fun k => (a k : EReal)) (fun k => (b k : EReal)) i j)
        (((rowSum (fun k => (a k : EReal)) i + rowSum (fun k => (b k : EReal)) j)
          + l1 (fun k => (a k : EReal)) (fun k => (b k : EReal)) i j) + eps2)
      = Ideal.div (minSum (fun k => (a k : EReal)) (fun k => (b k : EReal)) i j)
          (maxSum (fun k => (a k : EReal)) (fun k => (b k : EReal)) i j + eps) := by
  rw [rowSum_coe, rowSum_coe, l1_coe, minSum_coe, maxSum_coe, eps_eq, eps2_eq,
    ← EReal.coe_add, ← EReal.coe_sub, ← EReal.coe_add, ← EReal.coe_add, ← EReal.coe_add,
    sum_num, sum_den, div_two_mul]

end Law

open Law in
/-- On matrices whose every entry is a real number the two arrangements agree. -/
theorem simK_eq_sim (x y : SX.Idx → EReal)
    (hx : ∀ i, ∃ r : ℝ, x i = (r : EReal)) (hy : ∀ i, ∃ r : ℝ, y i = (r : EReal)) :
    simK x y = sim x y := by
  choose a ha using hx
  choose b hb using hy
  obtain rfl : x = fun k => (a k : EReal) := funext ha
  obtain rfl : y = fun k => (b k : EReal) := funext hb
  funext ij
  exact law_entry a b (ij 0) (ij 1)

end Cert.Ruzicka

end
-- ==== Proof.Finite.lean ====
/-
  From the precondition to real entries.  The precondition is one bit: the conjunction, over both argument matrices,
  of `|t| < +∞` at every entry `t` (an `all` of comparison bits).  If the bit is 1, every comparison bit is 1; and an
  extended real `t` with `max t (-t) < ⊤` is neither `⊤` nor `⊥`, so it is a real number.
-/
import proofs.«102354_j78718160601148_2_alg».proof.Pre_finite_inputs
import proofs.«102354_j78718160601148_2_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll
noncomputable section
namespace Cert.Ruzicka.Finite
open Idealize.ShloMosaic Idealize.ShloMosaic.ValueIdx

/-- The word 0x7F800000 denotes +∞. -/
theorem ofBits_inf : Ideal.ofBits .f32 0x7F800000#32 = (⊤ : EReal) := by simp [Ideal.ofBits, Ideal.ieee]

/-- An extended real with `max t (-t) < ⊤` is neither infinity, so it is a real number: at `⊤` the maximum is `⊤`,
    at `⊥` it is `-⊥ = ⊤`. -/
theorem real_of_max_neg_lt_top (t : EReal) (h : max t (-t) < ⊤) : ∃ r : ℝ, t = (r : EReal) := by
  obtain ⟨h1, h2⟩ := max_lt_iff.1 h
  induction t using EReal.rec with
  | bot => simp at h2
  | coe r => exact ⟨r, rfl⟩
  | top => simp at h1

/-- A value whose absolute value compares strictly below the word of +∞ (the comparison's bit is 1) is a real number. -/
theorem real_of_abs_lt (t : Ideal .f32)
    (h : FloatOps.cmpf .olt (FloatOps.hostAbsf t) (FloatOps.ofBits (F := Ideal) .f32 0x7F800000#32) = 1#1) :
    ∃ r : ℝ, t = (r : EReal) := by
  change Ideal.cmp .olt (max (t : EReal) (-(t : EReal))) (Ideal.ofBits .f32 0x7F800000#32) = 1#1 at h
  rw [ofBits_inf] at h
  unfold Ideal.cmp at h
  dsimp only at h
  refine real_of_max_neg_lt_top t ?_
  by_contra hn
  rw [decide_eq_false hn] at h
  exact absurd h (by decide)

/-- The rank-0 shape has one index. -/
instance : Subsingleton Cert.Pre_finite_inputs.S_.Idx := ⟨fun a b => funext fun d => d.elim0⟩

/-- Under the precondition every entry of both argument matrices is a real number. -/
theorem real_of_pre [Cert.Pre_finite_inputs.Facts]
    (x y : FVec Ideal Cert.Pre_finite_inputs.S1024x256 .f32)
    (h : Cert.Pre_finite_inputs.fn (F := Ideal) x y = fun _ => 1#1) :
    (∀ i, ∃ r : ℝ, x i = (r : EReal)) ∧ (∀ i, ∃ r : ℝ, y i = (r : EReal)) := by
  -- the precondition's one result bit: the conjunction of the two `all`s
  have h0 := congrFun h ix0
  unfold Cert.Pre_finite_inputs.fn at h0
  dsimp only at h0
  obtain ⟨h1, h2⟩ := IntOp.andi_eq_one.1 h0
  -- each `all` that is 1 had a 1 at every entry, and an entry's bit is the comparison |t| < +∞
  refine ⟨fun i => real_of_abs_lt (x i) ?_, fun i => real_of_abs_lt (y i) ?_⟩
  · exact Host.reduce_andi_all _ _ _ _ ix0 h1 i
  · exact Host.reduce_andi_all _ _ _ _ ix0 h2 i

end Cert.Ruzicka.Finite
end
-- ==== Proof.RefIs.lean ====
/-
  The reference computes the first arrangement.  Its result is a quotient of two sums over the last axis of rank-3
  arrays: the minimum, and the maximum, of `x` laid along a new middle axis and `y` laid along a new leading axis.
  Read at `(p, q)`, the summand at `k` is `min (x[p,k]) (y[q,k])` (resp. `max`): the two broadcasts of each argument,
  composed, send `(p, q, k)` to `(p, k)` for `x` and to `(q, k)` for `y`.  The denominator adds the constant ε.
-/
import proofs.«102354_j78718160601148_2_alg».proof.Proof.Spec
import proofs.«102354_j78718160601148_2_alg».proof.Proof.Gen.ReferenceIdeal.Read
noncomputable section
namespace Cert.Ruzicka.Ref
open Idealize.ShloMosaic Idealize.ShloMosaic.ValueIdx Cert.ReferenceIdeal Cert.ReferenceIdeal.Read

/-- Reading the first argument through its two broadcasts at the entry (p, q, k) of the rank-3 intermediate
    lands on x[p, k] (the minimum's operand). -/
theorem idx_x_min (p q : Fin 1024) (k : Fin 256) :
    idx_main_v0 (idx_main_v2 (idx_main_v5 (ix2 p q) k)) = ix2 p k :=
  funext fun a => Fin.ext (by match a with | ⟨0, _⟩ => rfl | ⟨1, _⟩ => rfl)

/-- Reading the second argument through its two broadcasts at (p, q, k) lands on y[q, k] (the minimum's operand). -/
theorem idx_y_min (p q : Fin 1024) (k : Fin 256) :
    idx_main_v1 (idx_main_v3 (idx_main_v5 (ix2 p q) k)) = ix2 q k :=
  funext fun a => Fin.ext (by match a with | ⟨0, _⟩ => rfl | ⟨1, _⟩ => rfl)

/-- The same for the maximum's operands: x[p, k] … -/
theorem idx_x_max (p q : Fin 1024) (k : Fin 256) :
    idx_main_v0 (idx_main_v6 (idx_main_v9 (ix2 p q) k)) = ix2 p k :=
  funext fun a => Fin.ext (by match a with | ⟨0, _⟩ => rfl | ⟨1, _⟩ => rfl)

/-- … and y[q, k]. -/
theorem idx_y_max (p q : Fin 1024) (k : Fin 256) :
    idx_main_v1 (idx_main_v7 (idx_main_v9 (ix2 p q) k)) = ix2 q k :=
  funext fun a => Fin.ext (by match a with | ⟨0, _⟩ => rfl | ⟨1, _⟩ => rfl)

/-- The reference's last stage, at Ideal, is the similarity of the spec, entry by entry. -/
theorem val_eq_sim (x0 x1 : (⟨Cert.ReferenceIdeal.S1024x256, .f32⟩ : BufTy).Contents (Elt Ideal)) :
    val_main_v12 (F := Ideal) x0 x1 = Cert.Ruzicka.sim x0 x1 := by
  funext i
  obtain ⟨p, q, rfl⟩ : ∃ (p q : Fin 1024), i = ix2 p q := ⟨i 0, i 1, eq_ix2 i⟩
  -- the quotient, its numerator (a sum from the initial value) and its denominator (a sum plus the constant ε)
  rw [val_main_v12_apply, val_main_v5_apply, val_main_v11_apply, val_main_v9_apply, val_main_v10_apply,
    val_main_cst_1_apply, val_main_cst_apply, val_main_cst_0_apply]
  -- under the sums: the minimum / maximum of the two broadcast arguments, read at the composed index maps
  simp only [val_main_v4_apply, val_main_v8_apply, val_main_v2_apply, val_main_v3_apply, val_main_v6_apply,
    val_main_v7_apply, val_main_v0_apply, val_main_v1_apply, idx_x_min, idx_y_min, idx_x_max, idx_y_max,
    Ideal.hostDivf_def, Ideal.ofBits_def, Ideal.addf_def, Ideal.minimumf_def, Ideal.maximumf_def]
  rfl

end Cert.Ruzicka.Ref
end
-- ==== Proof.Claims.lean ====
/-
  The claims.  Each program's frame is its run with the results forgotten.  For the value claim the common result is
  the similarity table `sim x y` of the kernel's arguments: the kernel ends at the row-sum arrangement `simK x y`,
  which is `sim x y` because the precondition makes every entry real; the reference ends at `sim` of its own
  arguments, which are the kernel's.
-/
import proofs.«102354_j78718160601148_2_alg».proof.Defs
import proofs.«102354_j78718160601148_2_alg».proof.Proof.Gen.Kernel
import proofs.«102354_j78718160601148_2_alg».proof.Proof.Gen.Kernel.Frame
import proofs.«102354_j78718160601148_2_alg».proof.Proof.Gen.KernelIdeal
import proofs.«102354_j78718160601148_2_alg».proof.Proof.Gen.KernelIdeal.Frame
import proofs.«102354_j78718160601148_2_alg».proof.Proof.Gen.ReferenceIdeal
import proofs.«102354_j78718160601148_2_alg».proof.Proof.Gen.ReferenceIdeal.Run
import proofs.«102354_j78718160601148_2_alg».proof.Proof.Gen.ReferenceIdeal.Read
import proofs.«102354_j78718160601148_2_alg».proof.Proof.Gen.Pre_finite_inputs
import proofs.«102354_j78718160601148_2_alg».proof.Proof.Spec
import proofs.«102354_j78718160601148_2_alg».proof.Proof.Law
import proofs.«102354_j78718160601148_2_alg».proof.Proof.Finite
import proofs.«102354_j78718160601148_2_alg».proof.Proof.RefIs
noncomputable section
namespace Cert.Proof.RuzickaClaims
open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

/-- Given the idealized kernel's run read as the similarity table in its row-sum arrangement, the two idealized programs agree. -/
theorem algebraic_of_run
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ fun r => ∀ c : Dev Cert.KernelIdeal.nD,
        r.2.mem ((c : Thread Cert.KernelIdeal.nD Cert.KernelIdeal.τ).loc Cert.KernelIdeal.main_v4)
          = Cert.Ruzicka.simK (m ((c : Thread Cert.KernelIdeal.nD Cert.KernelIdeal.τ).loc Cert.KernelIdeal.main_arg0)) (m ((c : Thread Cert.KernelIdeal.nD Cert.KernelIdeal.τ).loc Cert.KernelIdeal.main_arg1))
        ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)) :
    Cert.algebraic_KernelIdeal_ReferenceIdeal := by
  intro m ρ m' ρ' hpre hagree
  refine ⟨fun c => Cert.Ruzicka.sim (m ((c : Thread Cert.KernelIdeal.nD Cert.KernelIdeal.τ).loc Cert.KernelIdeal.main_arg0)) (m ((c : Thread Cert.KernelIdeal.nD Cert.KernelIdeal.τ).loc Cert.KernelIdeal.main_arg1)), ?_, ?_⟩
  · -- the kernel: its row-sum arrangement is the similarity on real entries, which the precondition gives
    refine (θ_run _ _ _).mono (fun r h c => ?_) (hrun m ρ)
    obtain ⟨hx, hy⟩ := Cert.Ruzicka.Finite.real_of_pre _ _ (hpre c)
    exact ⟨(h c).1.trans (Cert.Ruzicka.simK_eq_sim _ _ hx hy), (h c).2⟩
  · -- the reference: its last stage is the similarity of its own arguments, which agree with the kernel's
    refine (θ_run Cert.ReferenceIdeal.defs _ _).mono (fun _ h c => ⟨?_, (h c).2⟩)
      (Cert.ReferenceIdeal.Value.run (F := Ideal) m' ρ')
    rw [(h c).1, Cert.ReferenceIdeal.Read.val_main_v12_eq, Cert.Ruzicka.Ref.val_eq_sim, (hagree c).1, (hagree c).2]

end Cert.Proof.RuzickaClaims
end
-- ==== Proof.LibMidAxis.lean ====
/-
  Two layout operations read at an index given by coordinates, for a unit axis in the MIDDLE of a rank-3 shape: a
  matrix `[a, b]` cast to `[a, 1, b]` (each row kept as a one-row slab), and such a slab array `[a, 1, b]` broadcast
  along the unit axis to `[a, c, b]` (each row repeated `c` times). Both are instances of the general "layout operation
  read at an index" lemmas with the coordinates' arithmetic discharged, in the form the index library has for a
  leading unit axis.
-/
import Idealize.ShloMosaic.Lib.Pipeline.Value
import Idealize.ShloMosaic.Lib.ValueIdx

namespace Cert.MidAxis

open Idealize.ShloMosaic Idealize.ShloMosaic.ValueIdx

variable {α : Type}

/-- A matrix `[a, b]` cast to `[a, 1, b]` reads, at `(i, u, j)`, the operand at `(i, j)`, whatever the unit coordinate
    `u`: both indices have row-major position `i · b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A slab array `[a, 1, b]` broadcast to `[a, c, b]` reads, at `(i, k, j)`, the slab of row `i` at `j`. -/
theorem broadcastTo_a1b_acb_apply {a c b : ℕ} (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

end Cert.MidAxis
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.KChunk.lean ====
/-
  One row-chunk of the kernel's L1 table.  The body takes 16 rows `xs` of the x-block and all 256 rows `yb` of the
  y-block, lays the rows of `xs` along a new middle axis and the rows of `yb` along a new leading axis, subtracts,
  takes absolute values and sums over the last axis.  So the chunk's entry `(r, q)` is the L1 distance of row `r`
  of `xs` and row `q` of `yb`:

      chunk(r, q) = ∑_d |xs[r, d] - yb[q, d]|,        |t| = max t (-t).

  The body's sixteen chunks are this one function of sixteen different row ranges of the x-block.
-/
import proofs.«102354_j78718160601148_2_alg».proof.Proof.Gen.KernelIdeal.Skeleton
import proofs.«102354_j78718160601148_2_alg».proof.Proof.LibMidAxis
import proofs.«102354_j78718160601148_2_alg».proof.Proof.LibLaneSum
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.Ruzicka.Chunk

open Idealize.ShloMosaic Idealize.ShloMosaic.ValueIdx Cert.KernelIdeal Cert.KernelIdeal.Gen

/-- A `[1, a, b]` array broadcast to `[c, a, b]` reads, at `(k, i, j)`, the one slab at `(i, j)`. -/
theorem broadcastTo_1ab_cab_apply {α : Type} {c a b : ℕ} (v : (⟨3, ![1, a, b]⟩ : Shape).Idx → α)
    (h : (⟨3, ![1, a, b]⟩ : Shape).Broadcasts ⟨3, ![c, a, b]⟩) (k : Fin c) (i : Fin a) (j : Fin b) :
    broadcastTo ⟨3, ![c, a, b]⟩ v h (ix3 k i j) = v (ix3 (0 : Fin 1) i j) := by
  refine broadcastTo_apply v h (ix3 k i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- The chunk's entry `(r, q)`: the L1 distance of row `r` of the 16 x-rows and row `q` of the y-block. -/
theorem chunk_apply (yb : FVec Ideal S256x256 .f32) (xs : FVec Ideal S16x256 .f32) (r : Fin 16) (q : Fin 256) :
    k0_pay4 (F := Ideal) yb xs (ix2 r q)
      = ∑ d : Fin 256, max (xs (ix2 r d) - yb (ix2 q d)) (-(xs (ix2 r d) - yb (ix2 q d))) := by
  unfold k0_pay4
  rw [shapeCast_self]
  refine (Cert.LaneSum.sum_last3 _ _ _ _ _ r q).trans ?_
  refine Finset.sum_congr rfl fun d _ => ?_
  show max (broadcastTo S16x256x256 _ _ (ix3 r q d) - broadcastTo S16x256x256 _ _ (ix3 r q d))
      (-(broadcastTo S16x256x256 _ _ (ix3 r q d) - broadcastTo S16x256x256 _ _ (ix3 r q d))) = _
  rw [Cert.MidAxis.broadcastTo_a1b_acb_apply, Cert.MidAxis.shapeCast_ab_a1b_apply,
    broadcastTo_1ab_cab_apply, shapeCast_ab_1ab_apply]

end Cert.Ruzicka.Chunk

end
-- ==== Proof.KBody.lean ====
/-
  What the kernel body leaves in its output block, as one function of its four input blocks.

  The body fills a 256 x 256 scratch table chunk by chunk, sixteen rows at a time: rows `16c … 16c + 15` receive the
  L1 distances of those rows of the x-block against every row of the y-block.  The sixteen chunks tile the table, so
  read back whole it is the full L1 table `S(r, q) = ∑_d |xb[r, d] - yb[q, d]|`.  From it, the column `sx` of row sums of
  x and the row `sy` of row sums of y, the body stores

      out(r, q) = ((sx[r] + sy[q]) - S(r, q)) / (((sx[r] + sy[q]) + S(r, q)) + ε₂).
-/
import proofs.«102354_j78718160601148_2_alg».proof.Proof.Gen.KernelIdeal.Frame
import proofs.«102354_j78718160601148_2_alg».proof.Proof.KChunk
import proofs.«102354_j78718160601148_2_alg».proof.Proof.Spec
import Idealize.ShloMosaic.Lib.ValueLayout

set_option maxRecDepth 65536

noncomputable section

open scoped BigOperators

namespace Cert.Ruzicka.Body

open Idealize.ShloMosaic Idealize.ShloMosaic.ValueIdx Idealize.ShloMosaic.Tactic Cert.KernelIdeal Cert.KernelIdeal.Gen

/-- The L1 distance of row `r` of the x-block and row `q` of the y-block. -/
def l1rows (xb yb : S256x256.Idx → EReal) (r q : Fin 256) : EReal :=
  ∑ d : Fin 256, max (xb (ix2 r d) - yb (ix2 q d)) (-(xb (ix2 r d) - yb (ix2 q d)))

/-- The body's result at `(r, q)` from the blocks. -/
def bodyAt (xb yb : S256x256.Idx → EReal) (sx : S256x1.Idx → EReal) (sy : S1x256.Idx → EReal) (r q : Fin 256) : EReal :=
  Ideal.div ((sx (ix2 r (0 : Fin 1)) + sy (ix2 (0 : Fin 1) q)) - l1rows xb yb r q)
    (((sx (ix2 r (0 : Fin 1)) + sy (ix2 (0 : Fin 1) q)) + l1rows xb yb r q) + Cert.Ruzicka.eps2)

/-- A chunk's payload, at the local index `x` of its sixteen-row rectangle at row offset `o`, is the L1 table at the
    rectangle's image of `x`. -/
theorem chunk_at (xb yb : FVec Ideal S256x256 .f32) (o : ℕ)
    (inb : ∀ a, (![o, 0] : Fin 2 → ℕ) a + S16x256.size a ≤ S256x256.size a) (x : S16x256.Idx) :
    k0_pay4 (F := Ideal) yb (View.ld xb (Rect.unit (s := S256x256) ![o, 0] S16x256.size inb)) x
      = l1rows xb yb ((Rect.unit (s := S256x256) ![o, 0] S16x256.size inb).emb x 0)
          ((Rect.unit (s := S256x256) ![o, 0] S16x256.size inb).emb x 1) := by
  obtain ⟨r, q, rfl⟩ : ∃ (r : Fin 16) (q : Fin 256), x = ix2 r q := ⟨x 0, x 1, eq_ix2 x⟩
  rw [Cert.Ruzicka.Chunk.chunk_apply]
  unfold l1rows
  refine Finset.sum_congr rfl fun d _ => ?_
  have e1 : (Rect.unit (s := S256x256) ![o, 0] S16x256.size inb).emb (ix2 r d)
      = ix2 ((Rect.unit (s := S256x256) ![o, 0] S16x256.size inb).emb (ix2 r q) 0) d :=
    funext fun a => Fin.ext (by
      match a with
      | ⟨0, _⟩ => rfl
      | ⟨1, _⟩ => show 0 + 1 * d.val = d.val; omega)
  have e2 : (Rect.unit (s := S256x256) ![o, 0] S16x256.size inb).emb (ix2 r q) 1 = q :=
    Fin.ext (show 0 + 1 * q.val = q.val by omega)
  show max (xb ((Rect.unit (s := S256x256) ![o, 0] S16x256.size inb).emb (ix2 r d)) - yb (ix2 q d))
      (-(xb ((Rect.unit (s := S256x256) ![o, 0] S16x256.size inb).emb (ix2 r d)) - yb (ix2 q d))) = _
  rw [e1, e2]
  rfl

/-- The offsets `![0, 0]` are the zero offsets. -/
theorem hz : (![0, 0] : Fin 2 → Nat) = fun _ => 0 := funext fun a => by
  match a with
  | ⟨0, _⟩ => rfl
  | ⟨1, _⟩ => rfl

/-- ANY list of sixteen-row chunks of the L1 table — each piece a rectangle of 16 whole rows at some row offset,
    holding the chunk computed from those rows of the x-block — reads back, at every index a piece covers, as the
    L1 table: the pieces are restrictions of one function. -/
theorem canon_chunks (x0 x1 : FVec Ideal S256x256 .f32) (L : List (View.Piece (Elt Ideal) S256x256 .f32))
    (hL : ∀ p ∈ L, ∃ (o : ℕ) (inb : ∀ a, (![o, 0] : Fin 2 → ℕ) a + S16x256.size a ≤ S256x256.size a),
      p = ⟨Rect.unit (s := S256x256) ![o, 0] S16x256.size inb,
            k0_pay4 (F := Ideal) x1 (View.ld x0 (Rect.unit (s := S256x256) ![o, 0] S16x256.size inb))⟩)
    (y : S256x256.Idx) (hc : ∃ p ∈ L, y ∈ p.1.set) :
    View.canon L y = l1rows x0 x1 (y 0) (y 1) :=
  View.canon_apply_of_pieces (fun y => l1rows x0 x1 (y 0) (y 1)) L
    (fun p hp x => by obtain ⟨o, inb, rfl⟩ := hL p hp; exact chunk_at x0 x1 o inb x) y hc

/-- A column `[a, 1]` broadcast along `b` columns reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- From the L1 table `T`, the column of x's row sums and the row of y's, the body's last operations give `bodyAt`. -/
theorem body_of_table (x0 x1 : FVec Ideal S256x256 .f32) (T : FVec Ideal S256x256 .f32)
    (hT : T = fun y => l1rows x0 x1 (y 0) (y 1)) (x2 : FVec Ideal S256x1 .f32) (x3 : FVec Ideal S1x256 .f32) :
    k0_pay1 (F := Ideal) T (k0_pay22 (k0_pay2 x2) (k0_pay3 x3) T) (k0_pay23 (k0_pay2 x2) (k0_pay3 x3))
      = fun y => bodyAt x0 x1 x2 x3 (y 0) (y 1) := by
  subst hT
  funext y
  obtain ⟨r, q, rfl⟩ : ∃ (r q : Fin 256), y = ix2 r q := ⟨y 0, y 1, eq_ix2 y⟩
  unfold k0_pay1 k0_pay22 k0_pay23 k0_pay2 k0_pay3 bodyAt
  rw [shapeCast_self, shapeCast_self]
  show Ideal.div ((broadcastTo S256x256 x2 _ (ix2 r q) + broadcastTo S256x256 x3 _ (ix2 r q)) - l1rows x0 x1 r q)
      (((broadcastTo S256x256 x2 _ (ix2 r q) + broadcastTo S256x256 x3 _ (ix2 r q)) + l1rows x0 x1 r q)
        + Cert.Ruzicka.eps2) = _
  rw [broadcastTo_a1_ab_apply, broadcastTo_1b_ab_apply]

/-- THE BODY'S OUTPUT BLOCK, whatever the staging memrefs and the grid point: the one piece the run found, read back, is
    `bodyAt` of the four input blocks, entry by entry.  The scratch table is read back after sixteen stores that tile
    it, each a chunk of the L1 table. -/
theorem out_eq (c : Dev nD) (i : grid0.Coords) (arg2 : Memref sig .tc .vmem S256x256 .f32) (harg2 : arg2.IsWhole)
    (arg3 : Memref sig .tc .vmem S256x256 .f32) (harg3 : arg3.IsWhole) (arg4 : Memref sig .tc .vmem S256x1 .f32) (harg4 : arg4.IsWhole)
    (arg5 : Memref sig .tc .vmem S1x256 .f32) (harg5 : arg5.IsWhole) (arg6 : Memref sig .tc .vmem S256x256 .f32) (harg6 : arg6.IsWhole)
    (arg7 : Memref sig .tc .vmem S256x256 .f32) (harg7 : arg7.IsWhole)
    (x0 x1 : Vec Ideal S256x256 .f32) (x2 : Vec Ideal S256x1 .f32) (x3 : Vec Ideal S1x256 .f32) :
    out0_A_4 (F := Ideal) c i arg2 harg2 arg3 harg3 arg4 harg4 arg5 harg5 arg6 harg6 arg7 harg7 x0 x1 x2 x3
      = fun y => bodyAt x0 x1 x2 x3 (y 0) (y 1) := by
  unfold out0_A_4
  rw [View.read_writes_eq_canon _ _ _ (cover0_A_4 c i arg2 harg2 arg3 harg3 arg4 harg4 arg5 harg5 arg6 harg6 arg7 harg7 x0 x1 x2 x3)]
  unfold kernelRun0_A
  dsimp only
  rw [View.canon_unit_zero hz]
  sl_unfold_run_names
  simp only [View.readAt_eq_ld, harg2.read_unread, harg3.read_unread, harg4.read_unread, harg5.read_unread,
    View.ld_unit_zero (S := S256x256) hz, View.ld_unit_zero (S := S256x1) hz, View.ld_unit_zero (S := S1x256) hz]
  rw [View.readCov_eq_canon']
  refine body_of_table x0 x1 _ ?_ x2 x3
  show View.ld (View.canon _) (Rect.unit (s := S256x256) ![0, 0] S256x256.size inb_S256x256_S256x256_0_0) = _
  rw [View.ld_unit_zero (S := S256x256) hz]
  funext y
  refine canon_chunks x0 x1 _ ?_ y (View.cover_of_tiledL (s := S256x256) _ S16x256.size (by sl_kernel_rfl) y)
  intro p hp
  simp only [List.mem_cons, List.not_mem_nil, or_false] at hp
  rcases hp with rfl | rfl | rfl | rfl | rfl | rfl | rfl | rfl | rfl | rfl | rfl | rfl | rfl | rfl | rfl | rfl
  exacts [⟨240, _, rfl⟩, ⟨224, _, rfl⟩, ⟨208, _, rfl⟩, ⟨192, _, rfl⟩, ⟨176, _, rfl⟩, ⟨160, _, rfl⟩, ⟨144, _, rfl⟩,
    ⟨128, _, rfl⟩, ⟨112, _, rfl⟩, ⟨96, _, rfl⟩, ⟨80, _, rfl⟩, ⟨64, _, rfl⟩, ⟨48, _, rfl⟩, ⟨32, _, rfl⟩, ⟨16, _, rfl⟩,
    ⟨0, _, rfl⟩]

end Cert.Ruzicka.Body

end
-- ==== Proof.KHost.lean ====
/-
  The row sums the tiled region finds.  Before the region the program sums each row of `x` (and of `y`) from the
  initial value +0.0 and lays the 1024 sums of `x` as a column [1024, 1] and those of `y` as a row [1, 1024].  So the
  column at `(i, 0)` is the sum of row `i` of `x`, and the row at `(0, j)` the sum of row `j` of `y`.
-/
import proofs.«102354_j78718160601148_2_alg».proof.Proof.Gen.KernelIdeal.Frame
import proofs.«102354_j78718160601148_2_alg».proof.Proof.Spec
import Idealize.ShloMosaic.Lib.Pipeline.Value
import Idealize.ShloMosaic.Lib.StableHlo.Run
import Idealize.ShloMosaic.PureOps.Ideal.Laws
noncomputable section
open scoped BigOperators
namespace Cert.Ruzicka.HostSums
open Idealize.ShloMosaic Idealize.ShloMosaic.TcCoe Idealize.ShloMosaic.ValueIdx Idealize.ShloMosaic.StableHlo Idealize.SL.Sem Cert.KernelIdeal Cert.KernelIdeal.Gen

/-- The host's sum over the second axis of a [1024, 256] array from the initial value +0.0, read at row `i`:
    the spec's row sum. -/
theorem reduce_row (x : S1024x256.Idx → EReal) (i : S1024.Idx) :
    Host.reduceAdd (F := Ideal) x (constant (F := Ideal) S_ .f32 0x00000000#32) reducesTo_S1024x256_S1024_d1 h_S_ i
      = Cert.Ruzicka.rowSum x (i 0) := by
  simp only [Host.reduceAdd, Ideal.hostReduceAdd_def]
  rw [Ideal.hostReduceAdd_single reducesTo_S1024x256_S1024_d1 (by decide)]
  unfold Cert.Ruzicka.rowSum Cert.Ruzicka.z
  refine congrArg (_ + ·) (Finset.sum_congr rfl fun k _ => ?_)
  exact congrArg x (funext fun a => Fin.ext (by match a with | ⟨0, _⟩ => rfl | ⟨1, _⟩ => rfl))

variable (m : (ℓ : Loc nD τ sig) → Buf (Elt Ideal) ℓ)

/-- The column of x's row sums, as the region finds it: entry (i, u) is the sum of row i of the first argument. -/
theorem V_sx (c : Dev nD) (i : Fin 1024) (u : Fin 1) :
    (V m c main_v1 : S1024x1.Idx → EReal) (ix2 i u) = Cert.Ruzicka.rowSum (m ((c : Thread nD τ).loc main_arg0)) i := by
  -- what the host's operations leave in the array: the sums of the first argument's rows, broadcast to a column
  have e : (V m c main_v1 : S1024x1.Idx → EReal) = broadcastInDim S1024x1 ![0] bcast_S1024_S1024x1_0 (Host.reduceAdd (F := Ideal) (m ((c : Thread nD τ).loc main_arg0)) (constant (F := Ideal) S_ .f32 0x00000000#32) reducesTo_S1024x256_S1024_d1 h_S_) := by
    dsimp only [Gen.V, Gen.hostOps0]; after_results
  rw [e]
  -- the broadcast at (i, u) reads the vector of sums at i
  rw [broadcastInDim_apply _ bcast_S1024_S1024x1_0 _ (ix2 i u) (ix1 i) (fun a => match a with
    | ⟨0, _⟩ => by show i.val = if (1024 : Nat) = 1 then 0 else i.val; rw [if_neg (by decide)])]
  exact reduce_row _ _

/-- The row of y's row sums: entry (u, j) is the sum of row j of the second argument. -/
theorem V_sy (c : Dev nD) (u : Fin 1) (j : Fin 1024) :
    (V m c main_v3 : S1x1024.Idx → EReal) (ix2 u j) = Cert.Ruzicka.rowSum (m ((c : Thread nD τ).loc main_arg1)) j := by
  -- the sums of the second argument's rows, broadcast to a row
  have e : (V m c main_v3 : S1x1024.Idx → EReal) = broadcastInDim S1x1024 ![1] bcast_S1024_S1x1024_1 (Host.reduceAdd (F := Ideal) (m ((c : Thread nD τ).loc main_arg1)) (constant (F := Ideal) S_ .f32 0x00000000#32) reducesTo_S1024x256_S1024_d1 h_S_) := by
    dsimp only [Gen.V, Gen.hostOps0]; after_results
  rw [e]
  rw [broadcastInDim_apply _ bcast_S1024_S1x1024_1 _ (ix2 u j) (ix1 j) (fun a => match a with
    | ⟨0, _⟩ => by show j.val = if (1024 : Nat) = 1 then 0 else j.val; rw [if_neg (by decide)])]
  exact reduce_row _ _

end Cert.Ruzicka.HostSums
end
-- ==== Proof.KFinal.lean ====
/-
  From blocks to the array: the result array of the idealized kernel after its run is the similarity table `simK` of the
  two argument arrays.

  The grid has 4 x 4 points; point `t` has block coordinates `(gi, gj)`. It reads rows `256 gi … 256 gi + 255` of x, rows
  `256 gj … 256 gj + 255` of y, the same rows of the column of x's row sums and of the row of y's row sums, and writes the
  256 x 256 block `(gi, gj)` of the result. An entry `(r, q)` of that block is the body's quotient formed from row `r` of
  the x-block, row `q` of the y-block and their two sums; the entry of the array it lands on is
  `(256 gi + r, 256 gj + q)`, and `simK` there is the same quotient formed from row `256 gi + r` of x and row
  `256 gj + q` of y. A block's coordinate on an axis is always (block index) x (block size) + (coordinate inside the
  block), so once the five index maps are related over the sixteen points, each block entry is the array entry the
  quotient needs and the two quotients are one term. The sixteen blocks tile the 1024 x 1024 result (entry `(p, q)` lies
  in block `(p / 256, q / 256)`), so the array ends holding `simK` everywhere.
-/
import proofs.«102354_j78718160601148_2_alg».proof.Proof.Gen.KernelIdeal.Value
import proofs.«102354_j78718160601148_2_alg».proof.Proof.KBody
import proofs.«102354_j78718160601148_2_alg».proof.Proof.KHost
import proofs.«102354_j78718160601148_2_alg».proof.Proof.Spec
import Idealize.ShloMosaic.Lib.Pipeline.Value

set_option maxRecDepth 16384

noncomputable section

open scoped BigOperators

namespace Cert.Ruzicka.Final
open Idealize.ShloMosaic Idealize.ShloMosaic.TcCoe Idealize.ShloMosaic.ValueIdx Idealize.SL.Sem Cert.KernelIdeal Cert.KernelIdeal.Gen
open Idealize.ShloMosaic.Pipeline (Dat)
variable (m : (ℓ : Loc nD τ sig) → Buf (Elt Ideal) ℓ) (ρ : Dev nD → PrngReg)

/-- The block index maps over the sixteen grid points: windows 0 and 2 move with the result's first axis, windows 1 and 3
    with its second, the other axis of each stays at block 0, and the result's block indices are below 4. -/
theorem blockIndex_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 3 ∧ win0_4.index t (1 : Fin 2) ≤ 3 :=
  (by decide +kernel : ∀ t : Fin grid0.N, _)

/-- Every block of the result is some point's. -/
theorem blockIndex_onto : ∀ (q0 q1 : Fin 4), ∃ t : Fin cfg0.N, win0_4.index t = ![q0.val, q1.val] :=
  (by decide +kernel : ∀ (q0 q1 : Fin 4), ∃ t : Fin grid0.N, win0_4.index t = ![q0.val, q1.val])

/-- The body's entry from four blocks is the similarity's entry, once each block is read off its array. -/
theorem bodyAt_eq (X Y : SX.Idx → EReal) (xb yb : S256x256.Idx → EReal) (sx : S256x1.Idx → EReal)
    (sy : S1x256.Idx → EReal) (r q : Fin 256) (i j : Fin 1024)
    (hxb : ∀ d : Fin 256, xb (ix2 r d) = X (ix2 i d)) (hyb : ∀ d : Fin 256, yb (ix2 q d) = Y (ix2 j d))
    (hsx : sx (ix2 r (0 : Fin 1)) = rowSum X i) (hsy : sy (ix2 (0 : Fin 1) q) = rowSum Y j) :
    Body.bodyAt xb yb sx sy r q
      = Ideal.div ((rowSum X i + rowSum Y j) - l1 X Y i j) (((rowSum X i + rowSum Y j) + l1 X Y i j) + eps2) := by
  unfold Body.bodyAt Body.l1rows l1
  rw [hsx, hsy]
  simp only [hxb, hyb]

/-- What point t writes back is block t of the similarity table of the two arguments. -/
theorem flushed_eq (c : Dev nD) (t : Fin cfg0.N) :
    (dats m 0 c).flushed 4 t = ((cfg0.win 4).blk t).view.read (Elt Ideal)
      (Cert.Ruzicka.simK (m ((c : Thread nD τ).loc main_arg0)) (m ((c : Thread nD τ).loc main_arg1))) := by
  rw [Cert.KernelIdeal.Value.flushed4_A, Cert.Ruzicka.Body.out_eq]
  obtain ⟨e00, e01, e10, e11, e20, e21, e30, e31, b0, b1⟩ := blockIndex_facts t
  funext j
  refine bodyAt_eq (m ((c : Thread nD τ).loc main_arg0)) (m ((c : Thread nD τ).loc main_arg1))
    (iblk m c 0 t) (iblk m c 1 t) (iblk m c 2 t) (iblk m c 3 t) (j 0) (j 1)
    ((((cfg0.win 4).blk t).view.emb j) 0) ((((cfg0.win 4).blk t).view.emb j) 1) ?_ ?_ ?_ ?_
  · intro d
    show V m c main_arg0 (((cfg0.win 0).blk t).view.emb (ix2 (j 0) d)) = _
    rw [V_main_arg0]
    refine congrArg _ (funext fun a => Fin.ext ?_)
    match a with
    | ⟨0, _⟩ => show win0_0.index t (0 : Fin 2) * 256 + 1 * (j 0).val = win0_4.index t (0 : Fin 2) * 256 + 1 * (j 0).val; rw [e00]
    | ⟨1, _⟩ => show win0_0.index t (1 : Fin 2) * 256 + 1 * d.val = d.val; rw [e01]; omega
  · intro d
    show V m c main_arg1 (((cfg0.win 1).blk t).view.emb (ix2 (j 1) d)) = _
    rw [V_main_arg1]
    refine congrArg _ (funext fun a => Fin.ext ?_)
    match a with
    | ⟨0, _⟩ => show win0_1.index t (0 : Fin 2) * 256 + 1 * (j 1).val = win0_4.index t (1 : Fin 2) * 256 + 1 * (j 1).val; rw [e10]
    | ⟨1, _⟩ => show win0_1.index t (1 : Fin 2) * 256 + 1 * d.val = d.val; rw [e11]; omega
  · show (V m c main_v1 : S1024x1.Idx → EReal) (((cfg0.win 2).blk t).view.emb (ix2 (j 0) (0 : Fin 1))) = _
    have hi : ((cfg0.win 2).blk t).view.emb (ix2 (j 0) (0 : Fin 1))
        = ix2 ((((cfg0.win 4).blk t).view.emb j) 0) (0 : Fin 1) :=
      funext fun a => Fin.ext (by
        match a with
        | ⟨0, _⟩ => show win0_2.index t (0 : Fin 2) * 256 + 1 * (j 0).val = win0_4.index t (0 : Fin 2) * 256 + 1 * (j 0).val; rw [e20]
        | ⟨1, _⟩ => show win0_2.index t (1 : Fin 2) * 1 + 1 * 0 = 0; rw [e21])
    rw [hi]
    exact HostSums.V_sx m c _ _
  · show (V m c main_v3 : S1x1024.Idx → EReal) (((cfg0.win 3).blk t).view.emb (ix2 (0 : Fin 1) (j 1))) = _
    have hi : ((cfg0.win 3).blk t).view.emb (ix2 (0 : Fin 1) (j 1))
        = ix2 (0 : Fin 1) ((((cfg0.win 4).blk t).view.emb j) 1) :=
      funext fun a => Fin.ext (by
        match a with
        | ⟨0, _⟩ => show win0_3.index t (0 : Fin 2) * 1 + 1 * 0 = 0; rw [e30]
        | ⟨1, _⟩ => show win0_3.index t (1 : Fin 2) * 256 + 1 * (j 1).val = win0_4.index t (1 : Fin 2) * 256 + 1 * (j 1).val; rw [e31])
    rw [hi]
    exact HostSums.V_sy m c _ _

/-- An index of the result is in point `t`'s block iff each coordinate is in the block's range on its axis. -/
theorem mem_blk (t : Fin cfg0.N) (i : S1024x1024.Idx) :
    i ∈ ((cfg0.win 4).blk t).view.set ↔ ∀ a : Fin 2, win0_4.index t a * S256x256.size a ≤ (i a).val
      ∧ (i a).val < win0_4.index t a * S256x256.size a + S256x256.size a := by
  show i ∈ ((View.whole main_v4).slice (win0_4.rect t)).set ↔ _
  rw [View.set_slice_whole, Rect.mem_set_unit]
  exact Iff.rfl

/-- The sixteen blocks tile the result: entry `(p, q)` lies in the block of index `(p / 256, q / 256)`. -/
theorem cover (i : S1024x1024.Idx) :
    ∃ t : Fin cfg0.N, (cfg0.win 4).flush t = true ∧ i ∈ ((cfg0.win 4).blk t).view.set := by
  have hi0 : (i 0).val < 1024 := (i 0).isLt
  have hi1 : (i 1).val < 1024 := (i 1).isLt
  obtain ⟨t, ht⟩ := blockIndex_onto ⟨(i 0).val / 256, by omega⟩ ⟨(i 1).val / 256, by omega⟩
  have q0 : win0_4.index t (0 : Fin 2) = (i 0).val / 256 := congrFun ht 0
  have q1 : win0_4.index t (1 : Fin 2) = (i 1).val / 256 := congrFun ht 1
  refine ⟨t, flush0_4 t, ?_⟩
  rw [mem_blk]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 256 ≤ (i 1).val ∧ (i 1).val < win0_4.index t (1 : Fin 2) * 256 + 256; omega

/-- The result array after the run. -/
theorem final (c : Dev nD) : (dats m 0 c).arrAt 4 cfg0.N
    = Cert.Ruzicka.simK (m ((c : Thread nD τ).loc main_arg0)) (m ((c : Thread nD τ).loc main_arg1)) :=
  (dats m 0 c).arrAt_eq_of_cover 4
    (Cert.Ruzicka.simK (m ((c : Thread nD τ).loc main_arg0)) (m ((c : Thread nD τ).loc main_arg1)))
    (fun t _ => flushed_eq m c t) cover

/-- The idealized kernel's run, read: the result is the similarity table in its row-sum arrangement, the arguments unchanged. -/
theorem run : θ_run defs (onTc (τ := τ) (main (F := Ideal))) ⟨m, fun _ => 0, ρ⟩ fun r => ∀ c : Dev nD,
      r.2.mem ((c : Thread nD τ).loc main_v4) = Cert.Ruzicka.simK (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Ruzicka.Final
end
-- ==== Proof.lean ====
/-
  The weighted Jaccard (Ruzicka) similarity of the rows of two matrices `x`, `y` (both 1024 × 256):

      out[i, j] = (∑_d min(x[i,d], y[j,d])) / (∑_d max(x[i,d], y[j,d]) + ε).

  The reference computes it this way.  The kernel never takes a minimum or a maximum: from the row sums
  `A_i = ∑_d x[i,d]`, `B_j = ∑_d y[j,d]` (computed before the tiled region) and the L1 distance
  `S_ij = ∑_d |x[i,d] - y[j,d]|` (computed tile by tile, a 256 × 256 tile of the result per grid point, its L1 table
  filled sixteen rows at a time) it stores

      ((A_i + B_j) - S_ij) / (((A_i + B_j) + S_ij) + ε₂),        ε₂ = 2 ε  exactly.

  On real entries `a + b - |a - b| = 2 min(a, b)` and `a + b + |a - b| = 2 max(a, b)`, so the kernel's numerator and
  denominator are twice the reference's and the quotients agree — by zero too, where the quotient only looks at the
  numerator's sign.  The law needs the entries to be real numbers (at an infinity `a + b - |a - b|` is not `2 min`), which
  is what the precondition says.

  The modules: `Spec` (the two arrangements as functions of the argument arrays), `Law` (they agree on real
  entries), `Finite` (the precondition makes every entry real), `RefIs` (the reference computes the first
  arrangement), `KChunk` / `KBody` (one grid point's tile as a function of its four input blocks), `KHost` (the
  row sums the region finds), `KFinal` (the sixteen tiles are the second arrangement's table), `Claims` (the claims).
-/
import proofs.«102354_j78718160601148_2_alg».proof.Defs
import proofs.«102354_j78718160601148_2_alg».proof.Proof.Gen.Kernel
import proofs.«102354_j78718160601148_2_alg».proof.Proof.Gen.Kernel.Skeleton
import proofs.«102354_j78718160601148_2_alg».proof.Proof.Gen.Kernel.Launch
import proofs.«102354_j78718160601148_2_alg».proof.Proof.Gen.Kernel.Points
import proofs.«102354_j78718160601148_2_alg».proof.Proof.Gen.Kernel.Frame
import proofs.«102354_j78718160601148_2_alg».proof.Proof.Gen.KernelIdeal
import proofs.«102354_j78718160601148_2_alg».proof.Proof.Gen.KernelIdeal.Skeleton
import proofs.«102354_j78718160601148_2_alg».proof.Proof.Gen.KernelIdeal.Launch
import proofs.«102354_j78718160601148_2_alg».proof.Proof.Gen.KernelIdeal.Points
import proofs.«102354_j78718160601148_2_alg».proof.Proof.Gen.KernelIdeal.Frame
import proofs.«102354_j78718160601148_2_alg».proof.Proof.Gen.ReferenceIdeal
import proofs.«102354_j78718160601148_2_alg».proof.Proof.Gen.KernelIdeal.Value
import proofs.«102354_j78718160601148_2_alg».proof.Proof.Gen.ReferenceIdeal.Run
import proofs.«102354_j78718160601148_2_alg».proof.Proof.Gen.ReferenceIdeal.Read
import proofs.«102354_j78718160601148_2_alg».proof.Proof.Gen.Pre_finite_inputs
import proofs.«102354_j78718160601148_2_alg».proof.Proof.Claims
import proofs.«102354_j78718160601148_2_alg».proof.Proof.KFinal
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  RuzickaClaims.frame_k, RuzickaClaims.frame_ki, RuzickaClaims.frame_ri, RuzickaClaims.preserves,
  RuzickaClaims.algebraic_of_run Cert.Ruzicka.Final.run⟩

end Cert.Proof

end
